-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩
abbrev S1x1 : Shape := ⟨2, ![1, 1]⟩
abbrev S100000 : Shape := ⟨1, ![100000]⟩

abbrev nBuf : Space → Nat
  | .hbm => 61
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000x1, .f32⟩
  | .hbm, ⟨16, _⟩ => ⟨S_, .f32⟩
  | .hbm, ⟨17, _⟩ => ⟨S100000x1, .f32⟩
  | .hbm, ⟨18, _⟩ => ⟨S1600000x1, .i32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .bf16⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S1x1, .f32⟩
  | .hbm, ⟨59, _⟩ => ⟨S100000x1, .f32⟩
  | .hbm, ⟨60, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .bf16⟩
  | .local _ .vmem, ⟨5, _⟩ => ⟨S5000x64, .bf16⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩
abbrev S100000 : Shape := ⟨1, ![100000]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | .hbm, ⟨84, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.SageDense.lean ====
/-
  The dense part of a mean-aggregation graph layer, entry by entry, on the extended reals.

  A layer takes, for every node (row) `p`, the sum `s p` of its neighbours' feature rows, a reciprocal neighbour
  count `r p`, the node's own feature row `h p`, two 64×64 weight matrices and a bias row, and returns

      max ((∑ₖ (s p k · r p) · Wl k q) + (∑ₖ h p k · Wr k q) + b q, 0).

  The last projection takes the second layer's rows to one number per node: (∑ⱼ g p j · w j) + c.
  Both are stated for any number of rows, so that the same formula reads a block of rows and the whole array; an
  entry depends only on its own row of the row-indexed operands (`denseAt_congr`, `headAt_congr`).

  The one algebraic law used against the reference: dividing by `d` is multiplying by `1 / d` as soon as `d ≠ 0`
  — no finiteness is needed, since the extended reals' quotient by a non-zero `d` IS the product with `d⁻¹` —,
  and `d = max c 1` is never zero.
-/
import Idealize.ShloMosaic.PureOps.Ideal.Laws
import Idealize.ShloMosaic.Lib.ValueIdx

noncomputable section

open scoped BigOperators

namespace Cert.SageDense

open Idealize.ShloMosaic Idealize.ShloMosaic.ValueIdx

/-- The word of the float `0.0`, as both programs spell the rectifier's floor. -/
abbrev zeroW : EReal := Ideal.ofBits .f32 0x00000000#32
/-- The word of the float `1.0`: the clamp of the neighbour count and the reciprocal's numerator. -/
abbrev oneW : EReal := Ideal.ofBits .f32 0x3F800000#32

/-- The pattern of `1.0` denotes the real one. -/
theorem oneW_eq : oneW = 1 := by
  simp [oneW, Ideal.ofBits, Ideal.ieee, -EReal.coe_mul]; norm_num

variable {R : Nat}

/-- One entry of a layer's dense part: row `p`, feature `q`. -/
def denseAt (s : (⟨2, ![R, 64]⟩ : Shape).Idx → EReal) (r : (⟨2, ![R, 1]⟩ : Shape).Idx → EReal)
    (h : (⟨2, ![R, 64]⟩ : Shape).Idx → EReal) (wl wr : (⟨2, ![64, 64]⟩ : Shape).Idx → EReal)
    (b : (⟨2, ![1, 64]⟩ : Shape).Idx → EReal) (p : Fin R) (q : Fin 64) : EReal :=
  max ((∑ k : Fin 64, (s (ix2 p k) * r (ix2 p (0 : Fin 1))) * wl (ix2 k q))
        + (∑ k : Fin 64, h (ix2 p k) * wr (ix2 k q)) + b (ix2 (0 : Fin 1) q)) zeroW

/-- The dense part as an array of rows. -/
def dense (s : (⟨2, ![R, 64]⟩ : Shape).Idx → EReal) (r : (⟨2, ![R, 1]⟩ : Shape).Idx → EReal)
    (h : (⟨2, ![R, 64]⟩ : Shape).Idx → EReal) (wl wr : (⟨2, ![64, 64]⟩ : Shape).Idx → EReal)
    (b : (⟨2, ![1, 64]⟩ : Shape).Idx → EReal) : (⟨2, ![R, 64]⟩ : Shape).Idx → EReal :=
  fun i => denseAt s r h wl wr b (i 0) (i 1)

theorem dense_ix2 (s : (⟨2, ![R, 64]⟩ : Shape).Idx → EReal) (r : (⟨2, ![R, 1]⟩ : Shape).Idx → EReal)
    (h : (⟨2, ![R, 64]⟩ : Shape).Idx → EReal) (wl wr : (⟨2, ![64, 64]⟩ : Shape).Idx → EReal)
    (b : (⟨2, ![1, 64]⟩ : Shape).Idx → EReal) (p : Fin R) (q : Fin 64) :
    dense s r h wl wr b (ix2 p q) = denseAt s r h wl wr b p q := rfl

/-- An entry reads only its own row of the sums, the reciprocal count and the features. -/
theorem denseAt_congr {R' : Nat}
    (s : (⟨2, ![R, 64]⟩ : Shape).Idx → EReal) (r : (⟨2, ![R, 1]⟩ : Shape).Idx → EReal)
    (h : (⟨2, ![R, 64]⟩ : Shape).Idx → EReal)
    (s' : (⟨2, ![R', 64]⟩ : Shape).Idx → EReal) (r' : (⟨2, ![R', 1]⟩ : Shape).Idx → EReal)
    (h' : (⟨2, ![R', 64]⟩ : Shape).Idx → EReal)
    (wl wr : (⟨2, ![64, 64]⟩ : Shape).Idx → EReal) (b : (⟨2, ![1, 64]⟩ : Shape).Idx → EReal)
    (p : Fin R) (p' : Fin R') (q : Fin 64)
    (hs : ∀ k : Fin 64, s (ix2 p k) = s' (ix2 p' k)) (hr : r (ix2 p (0 : Fin 1)) = r' (ix2 p' (0 : Fin 1)))
    (hh : ∀ k : Fin 64, h (ix2 p k) = h' (ix2 p' k)) :
    denseAt s r h wl wr b p q = denseAt s' r' h' wl wr b p' q := by
  unfold denseAt
  simp only [hs, hr, hh]

/-- One entry of the last projection: node `p`. -/
def headAt (g : (⟨2, ![R, 64]⟩ : Shape).Idx → EReal) (w : (⟨2, ![64, 1]⟩ : Shape).Idx → EReal)
    (c : (⟨2, ![1, 1]⟩ : Shape).Idx → EReal) (p : Fin R) : EReal :=
  (∑ j : Fin 64, g (ix2 p j) * w (ix2 j (0 : Fin 1))) + c (ix2 (0 : Fin 1) (0 : Fin 1))

/-- The projection as a column. -/
def head (g : (⟨2, ![R, 64]⟩ : Shape).Idx → EReal) (w : (⟨2, ![64, 1]⟩ : Shape).Idx → EReal)
    (c : (⟨2, ![1, 1]⟩ : Shape).Idx → EReal) : (⟨2, ![R, 1]⟩ : Shape).Idx → EReal :=
  fun i => headAt g w c (i 0)

theorem head_ix2 (g : (⟨2, ![R, 64]⟩ : Shape).Idx → EReal) (w : (⟨2, ![64, 1]⟩ : Shape).Idx → EReal)
    (c : (⟨2, ![1, 1]⟩ : Shape).Idx → EReal) (p : Fin R) (z : Fin 1) :
    head g w c (ix2 p z) = headAt g w c p := rfl

/-- The projection of node `p` reads only row `p`. -/
theorem headAt_congr {R' : Nat} (g : (⟨2, ![R, 64]⟩ : Shape).Idx → EReal) (g' : (⟨2, ![R', 64]⟩ : Shape).Idx → EReal)
    (w : (⟨2, ![64, 1]⟩ : Shape).Idx → EReal) (c : (⟨2, ![1, 1]⟩ : Shape).Idx → EReal) (p : Fin R) (p' : Fin R')
    (hg : ∀ j : Fin 64, g (ix2 p j) = g' (ix2 p' j)) : headAt g w c p = headAt g' w c p' := by
  unfold headAt
  simp only [hg]

/-! ## The law that joins the two programs -/

/-- A quotient by a non-zero extended real is the product with its reciprocal, whatever the dividend. -/
theorem div_eq_mul_recip (a d : EReal) (hd : d ≠ 0) : Ideal.div a d = a * Ideal.div 1 d := by
  unfold Ideal.div
  rw [if_neg hd, if_neg hd, one_mul]

/-- A count clamped below by one is never zero. -/
theorem max_one_ne_zero (c : EReal) : max c oneW ≠ 0 := by
  rw [oneW_eq]
  intro h
  have h1 : (1 : EReal) ≤ max c 1 := le_max_right c 1
  rw [h] at h1
  exact absurd h1 (by norm_num)

/-- The reciprocal the kernel's host side computes once per node: the float one over the clamped count. -/
def recipOf (d : EReal) : EReal := Ideal.div oneW d

/-- So the mean taken by the reference — the neighbour sum over the clamped count — is the product the kernel takes
    with the reciprocal it computed once. -/
theorem mean_eq (a c : EReal) : Ideal.div a (max c oneW) = a * recipOf (max c oneW) := by
  unfold recipOf
  rw [div_eq_mul_recip a _ (max_one_ne_zero c)]
  congr 2
  exact oneW_eq.symm

end Cert.SageDense

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.DenseBody.lean ====
/-
  The two kernel bodies' arithmetic, read at an entry, at the ideal instance.

  Both bodies work on a block of 5000 node rows. The first stores, at row `p` and feature `q`,

      max ((∑ₖ (s p k · r p) · Wl k q) + (∑ₖ h p k · Wr k q) + b q, 0)

  — the neighbour sums scaled by the reciprocal count (one column, spread over the features), the two matrix products
  into zero accumulators read as sums over the contracted feature axis, the bias row spread over the rows, the
  rectifier; the changes of float format are the identity here. The second body computes the same rows and then
  their product with the 64×1 projection plus its one-entry bias: (∑ⱼ g p j · w j) + c.
-/
import proofs.«153400_j36507222016452_2_alg».proof.Proof.Gen.KernelIdeal.Skeleton
import proofs.«153400_j36507222016452_2_alg».proof.Proof.SageDense
import proofs.«153400_j36507222016452_2_alg».proof.Proof.LibMatmulNN
import Idealize.ShloMosaic.Lib.Pipeline.Value
import Idealize.ShloMosaic.Lib.ValueLayout

noncomputable section

open scoped BigOperators

namespace Cert.KernelIdeal.DenseBody

open Idealize.ShloMosaic Idealize.ShloMosaic.ValueIdx Cert.KernelIdeal Cert.KernelIdeal.Gen Cert.SageDense

/-- A column spread over a second axis reads, at row `p` and any position `c`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first body's stored value at row `p`, feature `q` is the layer's dense entry of its six loaded blocks. -/
theorem pay0_apply (v0 : Vec Ideal S5000x64 .f32) (v2 : Vec Ideal S5000x1 .f32) (v7 : Vec Ideal S5000x64 .bf16)
    (v9 v11 : Vec Ideal S64x64 .f32) (v16 : Vec Ideal S1x64 .f32) (p : Fin 5000) (q : Fin 64) :
    k0_pay1 v0 v2 v7 v9 v11 v16 (ix2 p q) = denseAt v0 v2 v7 v9 v11 v16 p q := by
  unfold k0_pay1
  rw [truncf_apply, maximumf_apply, addf_apply, addf_apply, broadcast_apply]
  rw [Cert.LibMatmulNN.matmul_zero_apply' _ rfl rfl rfl rfl rfl rfl, Cert.LibMatmulNN.matmul_zero_apply' _ rfl rfl rfl rfl rfl rfl]
  rw [broadcastTo_1b_ab_apply]
  simp only [shapeCast_self, truncf_apply, mulf_apply, broadcastTo_a1_ab_apply]
  rfl

/-- The second body's stored value at node `p`: the projection of the dense rows it computes on the way. -/
theorem pay1_apply (v0 : Vec Ideal S5000x64 .f32) (v2 : Vec Ideal S5000x1 .f32) (v7 : Vec Ideal S5000x64 .bf16)
    (v9 v11 : Vec Ideal S64x64 .f32) (v16 : Vec Ideal S1x64 .f32) (v23 : Vec Ideal S64x1 .f32) (v26 : Vec Ideal S1x1 .f32)
    (p : Fin 5000) (z : Fin 1) :
    k1_pay1 v0 v2 v7 v9 v11 v16 v23 v26 (ix2 p z) = headAt (dense v0 v2 v7 v9 v11 v16) v23 v26 p := by
  have hz : z = 0 := Subsingleton.elim _ _
  subst hz
  show addf (matmul dot_S5000x64_S64x1_S5000x1_1_0_0_1_n_n none (k0_pay1 v0 v2 v7 v9 v11 v16)
        (truncf .bf16 v23 bitsLt_bf16_f32) (constant S5000x1 .f32 0x00000000#32))
      (broadcastTo S5000x1 (shapeCast S1x1 v26 shapeCasts_S1x1_S1x1) broadcasts_S1x1_S5000x1) (ix2 p (0 : Fin 1)) = _
  rw [addf_apply, Cert.LibMatmulNN.matmul_zero_apply' _ rfl rfl rfl rfl rfl rfl, broadcastTo_1b_ab_apply]
  simp only [shapeCast_self, truncf_apply, pay0_apply]
  rfl

end Cert.KernelIdeal.DenseBody

end
-- ==== Proof.Layer1.lean ====
/-
  The first layer's output array, as one function of the arrays the first kernel region finds.

  The region walks the 100000 node rows in 20 blocks of 5000; at point `t` it reads rows `t·5000 … t·5000 + 4999`
  of the neighbour sums, the reciprocal counts and the features, the whole of the two weight matrices and of the
  bias row, and writes the same rows of its output. A block's entry (p, q) is therefore the dense entry
  (t·5000 + p, q) of the WHOLE arrays (an entry reads only its own row); every row lies in exactly the block
  `row / 5000`, so the blocks cover the array and it ends holding the layer's dense part of the arrays at entry.
-/
import proofs.«153400_j36507222016452_2_alg».proof.Proof.Gen.KernelIdeal.Frame
import proofs.«153400_j36507222016452_2_alg».proof.Proof.DenseBody
import Idealize.ShloMosaic.Lib.Pipeline.Value

set_option maxRecDepth 16384

noncomputable section

open scoped BigOperators

namespace Cert.KernelIdeal.Layer1

open Idealize.ShloMosaic Idealize.ShloMosaic.TcCoe Idealize.ShloMosaic.ValueIdx Idealize.SL.Sem
open Cert.KernelIdeal Cert.KernelIdeal.Gen Cert.SageDense Cert.KernelIdeal.DenseBody
open Idealize.ShloMosaic.Pipeline (Dat)

/-- A block's stored entry is the whole arrays' dense entry at the block's row offset: the block operands are rows
    `n·5000 + p` of the row-indexed arrays and the whole of the others. -/
theorem block_entry (A0 : S100000x64.Idx → EReal) (A1 : S100000x1.Idx → EReal) (A2 : S100000x64.Idx → EReal)
    (A3 A4 : S64x64.Idx → EReal) (A5 : S1x64.Idx → EReal)
    (x0 : Vec Ideal S5000x64 .f32) (x1 : Vec Ideal S5000x1 .f32) (x2 : Vec Ideal S5000x64 .bf16)
    (x3 x4 : Vec Ideal S64x64 .f32) (x5 : Vec Ideal S1x64 .f32)
    (n : Nat) (hn : n < 20)
    (h0 : ∀ (p : Fin 5000) (k : Fin 64), x0 (ix2 p k) = A0 (ix2 (⟨n * 5000 + p.val, by have := p.isLt; omega⟩ : Fin 100000) k))
    (h1 : ∀ (p : Fin 5000), x1 (ix2 p (0 : Fin 1)) = A1 (ix2 (⟨n * 5000 + p.val, by have := p.isLt; omega⟩ : Fin 100000) (0 : Fin 1)))
    (h2 : ∀ (p : Fin 5000) (k : Fin 64), x2 (ix2 p k) = A2 (ix2 (⟨n * 5000 + p.val, by have := p.isLt; omega⟩ : Fin 100000) k))
    (h3 : x3 = A3) (h4 : x4 = A4) (h5 : x5 = A5) (p : Fin 5000) (q : Fin 64) :
    k0_pay1 x0 x1 x2 x3 x4 x5 (ix2 p q)
      = dense (R := 100000) A0 A1 A2 A3 A4 A5 (ix2 (⟨n * 5000 + p.val, by have := p.isLt; omega⟩ : Fin 100000) q) := by
  rw [pay0_apply, dense_ix2]
  subst h3 h4 h5
  exact denseAt_congr x0 x1 x2 A0 A1 A2 x3 x4 x5 p _ q (h0 p) (h1 p) (h2 p)

variable (V : (c : Dev nD) → (b : Ref sig .tc) → Buf (Elt Ideal) ((c : Thread nD τ).loc b))

/-- The layer's dense part of the arrays the region finds. -/
def result (c : Dev nD) : S100000x64.Idx → EReal :=
  dense (R := 100000) (V c main_v23) (V c main_v11) (V c main_v12) (V c main_arg2) (V c main_arg3) (V c main_v24)

theorem origin : (![0, 0] : Fin 2 → Nat) = fun _ => 0 := funext fun a => by fin_cases a <;> rfl

/-- The printed index maps over the grid: the row-indexed windows sit at block row `t`, the others at the origin. -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer's dense part. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero origin]
  simp only [View.ld_unit_zero (S := S5000x64) origin, View.ld_unit_zero (S := S5000x1) origin,
    View.ld_unit_zero (S := S64x64) origin, View.ld_unit_zero (S := S1x64) origin]
  obtain ⟨e00, e01, e10, e11, e20, e21, e30, e31, e40, e41, e50, e51, e60, e61⟩ := index_rows t
  funext j
  obtain ⟨p, q, rfl⟩ : ∃ (p : Fin 5000) (q : Fin 64), j = ix2 p q := ⟨j 0, j 1, eq_ix2 j⟩
  have ht : t.val < 20 := lt_of_lt_of_eq t.isLt N_0
  show k0_pay1 (iblk0 V c 0 t) (iblk0 V c 1 t) (iblk0 V c 2 t) (iblk0 V c 3 t) (iblk0 V c 4 t) (iblk0 V c 5 t) (ix2 p q)
      = result V c (((cfg0.win 6).blk t).view.emb (ix2 p q))
  have hout : ((cfg0.win 6).blk t).view.emb (ix2 p q)
      = ix2 (⟨t.val * 5000 + p.val, by have := p.isLt; omega⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  rw [hout]
  refine block_entry (V c main_v23) (V c main_v11) (V c main_v12) (V c main_arg2) (V c main_arg3) (V c main_v24)
    (iblk0 V c 0 t) (iblk0 V c 1 t) (iblk0 V c 2 t) (iblk0 V c 3 t) (iblk0 V c 4 t) (iblk0 V c 5 t) t.val ht
    ?_ ?_ ?_ ?_ ?_ ?_ p q
  · intro p k
    show V c main_v23 (((cfg0.win 0).blk t).view.emb (ix2 p k)) = _
    refine congrArg (V c main_v23) ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  · intro p
    show V c main_v11 (((cfg0.win 1).blk t).view.emb (ix2 p (0 : Fin 1))) = _
    refine congrArg (V c main_v11) ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · intro p k
    show V c main_v12 (((cfg0.win 2).blk t).view.emb (ix2 p k)) = _
    refine congrArg (V c main_v12) ?_
    funext a; apply Fin.ext
    match a with
    | ⟨0, _⟩ => show win0_2.index t (0 : Fin 2) * 5000 + 1 * p.val = t.val * 5000 + p.val; omega
    | ⟨1, _⟩ => show win0_2.index t (1 : Fin 2) * 64 + 1 * k.val = k.val; omega
  · funext y
    show V c main_arg2 (((cfg0.win 3).blk t).view.emb y) = V c main_arg2 y
    refine congrArg (V c main_arg2) ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_arg3 (((cfg0.win 4).blk t).view.emb y) = V c main_arg3 y
    refine congrArg (V c main_arg3) ?_
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  · funext y
    show V c main_v24 (((cfg0.win 5).blk t).view.emb y) = V c main_v24 y
    refine congrArg (V c main_v24) ?_
    funext a; apply Fin.ext
    match a with
    | ⟨0, _⟩ => show win0_5.index t (0 : Fin 2) * 1 + 1 * (y 0).val = (y 0).val; omega
    | ⟨1, _⟩ => show win0_5.index t (1 : Fin 2) * 64 + 1 * (y 1).val = (y 1).val; omega

/-- An index of the output array is in point `t`'s block iff each coordinate is in the block's range. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v25).slice (win0_6.rect t)).set ↔ _
  rw [View.set_slice_whole, Rect.mem_set_unit]
  exact Iff.rfl

/-- Every row is in the block `row / 5000`: the written blocks cover the array. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, -, -, -, -, -, -, e60, e61⟩ := index_rows t
  have e60' : win0_6.index t (0 : Fin 2) = (i 0).val / 5000 := e60
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The output array after the region: the layer's dense part of the arrays the region found. -/
theorem final (c : Dev nD) : (dat0 V c).arrAt 6 cfg0.N = result V c :=
  (dat0 V c).arrAt_eq_of_cover 6 (result V c) (fun t _ => flushed_eq V c t) (cover)

end Cert.KernelIdeal.Layer1

end
-- ==== Proof.Layer2.lean ====
/-
  The second kernel region's output array, as one function of the arrays the region finds.

  Like the first region it walks the 100000 node rows in 20 blocks of 5000; at point `t` it reads rows
  `t·5000 … t·5000 + 4999` of the second layer's neighbour sums, of the reciprocal counts and of the first layer's
  features, the whole of the two weight matrices, of the bias row, of the 64×1 projection and of its one-entry bias,
  and writes the same rows of a one-column output. A block's entry at node `p` is the projection of the dense row
  `t·5000 + p` of the WHOLE arrays; the blocks cover the column, which ends holding the projection of the second
  layer's dense part.
-/
import proofs.«153400_j36507222016452_2_alg».proof.Proof.Gen.KernelIdeal.Frame
import proofs.«153400_j36507222016452_2_alg».proof.Proof.DenseBody
import Idealize.ShloMosaic.Lib.Pipeline.Value

set_option maxRecDepth 16384

noncomputable section

open scoped BigOperators

namespace Cert.KernelIdeal.Layer2

open Idealize.ShloMosaic Idealize.ShloMosaic.TcCoe Idealize.ShloMosaic.ValueIdx Idealize.SL.Sem
open Cert.KernelIdeal Cert.KernelIdeal.Gen Cert.SageDense Cert.KernelIdeal.DenseBody
open Idealize.ShloMosaic.Pipeline (Dat)

/-- A block's stored entry is the projection of the whole arrays' dense row at the block's row offset. -/
theorem block_entry (A0 : S100000x64.Idx → EReal) (A1 : S100000x1.Idx → EReal) (A2 : S100000x64.Idx → EReal)
    (A3 A4 : S64x64.Idx → EReal) (A5 : S1x64.Idx → EReal) (A6 : S64x1.Idx → EReal) (A7 : S1x1.Idx → EReal)
    (x0 : Vec Ideal S5000x64 .f32) (x1 : Vec Ideal S5000x1 .f32) (x2 : Vec Ideal S5000x64 .bf16)
    (x3 x4 : Vec Ideal S64x64 .f32) (x5 : Vec Ideal S1x64 .f32) (x6 : Vec Ideal S64x1 .f32) (x7 : Vec Ideal S1x1 .f32)
    (n : Nat) (hn : n < 20)
    (h0 : ∀ (p : Fin 5000) (k : Fin 64), x0 (ix2 p k) = A0 (ix2 (⟨n * 5000 + p.val, by have := p.isLt; omega⟩ : Fin 100000) k))
    (h1 : ∀ (p : Fin 5000), x1 (ix2 p (0 : Fin 1)) = A1 (ix2 (⟨n * 5000 + p.val, by have := p.isLt; omega⟩ : Fin 100000) (0 : Fin 1)))
    (h2 : ∀ (p : Fin 5000) (k : Fin 64), x2 (ix2 p k) = A2 (ix2 (⟨n * 5000 + p.val, by have := p.isLt; omega⟩ : Fin 100000) k))
    (h3 : x3 = A3) (h4 : x4 = A4) (h5 : x5 = A5) (h6 : x6 = A6) (h7 : x7 = A7) (p : Fin 5000) (z : Fin 1) :
    k1_pay1 x0 x1 x2 x3 x4 x5 x6 x7 (ix2 p z)
      = head (R := 100000) (dense (R := 100000) A0 A1 A2 A3 A4 A5) A6 A7
          (ix2 (⟨n * 5000 + p.val, by have := p.isLt; omega⟩ : Fin 100000) z) := by
  rw [pay1_apply, head_ix2]
  subst h3 h4 h5 h6 h7
  refine headAt_congr _ _ x6 x7 p _ fun j => ?_
  rw [dense_ix2, dense_ix2]
  exact denseAt_congr x0 x1 x2 A0 A1 A2 x3 x4 x5 p _ j (h0 p) (h1 p) (h2 p)

variable (V : (c : Dev nD) → (b : Ref sig .tc) → Buf (Elt Ideal) ((c : Thread nD τ).loc b))

/-- The projection of the second layer's dense part of the arrays the region finds. -/
def result (c : Dev nD) : S100000x1.Idx → EReal :=
  head (R := 100000)
    (dense (R := 100000) (V c main_v36) (V c main_v11) (V c main_v25) (V c main_arg5) (V c main_arg6) (V c main_v37))
    (V c main_arg8) (V c main_v38)

theorem origin : (![0, 0] : Fin 2 → Nat) = fun _ => 0 := funext fun a => by fin_cases a <;> rfl

/-- The printed index maps over the grid: the row-indexed windows sit at block row `t`, the others at the origin. -/
theorem index_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- What point `t` writes back is block `t` of the projected column. -/
theorem flushed_eq (c : Dev nD) (t : Fin cfg1.N) :
    (dat1 V c).flushed 8 t = ((cfg1.win 8).blk t).view.read (Elt Ideal) (result V c) := by
  show (cfg1.win 8).cut (grid1.coords t) ((dat1 V c).after 8 t) = _
  rw [after1_8]
  unfold out1_8
  rw [View.canon_unit_zero origin]
  simp only [View.ld_unit_zero (S := S5000x64) origin, View.ld_unit_zero (S := S5000x1) origin,
    View.ld_unit_zero (S := S64x64) origin, View.ld_unit_zero (S := S1x64) origin,
    View.ld_unit_zero (S := S64x1) origin, View.ld_unit_zero (S := S1x1) origin]
  obtain ⟨e00, e01, e10, e11, e20, e21, e30, e31, e40, e41, e50, e51, e60, e61, e70, e71, e80, e81⟩ := index_rows t
  funext j
  obtain ⟨p, z, rfl⟩ : ∃ (p : Fin 5000) (z : Fin 1), j = ix2 p z := ⟨j 0, j 1, eq_ix2 j⟩
  have ht : t.val < 20 := lt_of_lt_of_eq t.isLt N_1
  have hz : z.val = 0 := by have := z.isLt; omega
  show k1_pay1 (iblk1 V c 0 t) (iblk1 V c 1 t) (iblk1 V c 2 t) (iblk1 V c 3 t) (iblk1 V c 4 t) (iblk1 V c 5 t)
        (iblk1 V c 6 t) (iblk1 V c 7 t) (ix2 p z)
      = result V c (((cfg1.win 8).blk t).view.emb (ix2 p z))
  have hout : ((cfg1.win 8).blk t).view.emb (ix2 p z)
      = ix2 (⟨t.val * 5000 + p.val, by have := p.isLt; omega⟩ : Fin 100000) z := by
    funext a; apply Fin.ext
    match a with
    | ⟨0, _⟩ => show win1_8.index t (0 : Fin 2) * 5000 + 1 * p.val = t.val * 5000 + p.val; omega
    | ⟨1, _⟩ => show win1_8.index t (1 : Fin 2) * 1 + 1 * z.val = z.val; omega
  rw [hout]
  refine block_entry (V c main_v36) (V c main_v11) (V c main_v25) (V c main_arg5) (V c main_arg6) (V c main_v37)
    (V c main_arg8) (V c main_v38)
    (iblk1 V c 0 t) (iblk1 V c 1 t) (iblk1 V c 2 t) (iblk1 V c 3 t) (iblk1 V c 4 t) (iblk1 V c 5 t)
    (iblk1 V c 6 t) (iblk1 V c 7 t) t.val ht ?_ ?_ ?_ ?_ ?_ ?_ ?_ ?_ p z
  · intro p k
    show V c main_v36 (((cfg1.win 0).blk t).view.emb (ix2 p k)) = _
    refine congrArg (V c main_v36) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · intro p
    show V c main_v11 (((cfg1.win 1).blk t).view.emb (ix2 p (0 : Fin 1))) = _
    refine congrArg (V c main_v11) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · intro p k
    show V c main_v25 (((cfg1.win 2).blk t).view.emb (ix2 p k)) = _
    refine congrArg (V c main_v25) ?_
    funext a; apply Fin.ext
    match a with
    | ⟨0, _⟩ => show win1_2.index t (0 : Fin 2) * 5000 + 1 * p.val = t.val * 5000 + p.val; omega
    | ⟨1, _⟩ => show win1_2.index t (1 : Fin 2) * 64 + 1 * k.val = k.val; omega
  · funext y
    show V c main_arg5 (((cfg1.win 3).blk t).view.emb y) = V c main_arg5 y
    refine congrArg (V c main_arg5) ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_arg6 (((cfg1.win 4).blk t).view.emb y) = V c main_arg6 y
    refine congrArg (V c main_arg6) ?_
    funext a; apply Fin.ext
    match a with
    | ⟨0, _⟩ => show win1_4.index t (0 : Fin 2) * 64 + 1 * (y 0).val = (y 0).val; omega
    | ⟨1, _⟩ => show win1_4.index t (1 : Fin 2) * 64 + 1 * (y 1).val = (y 1).val; omega
  · funext y
    show V c main_v37 (((cfg1.win 5).blk t).view.emb y) = V c main_v37 y
    refine congrArg (V c main_v37) ?_
    funext a; apply Fin.ext
    match a with
    | ⟨0, _⟩ => show win1_5.index t (0 : Fin 2) * 1 + 1 * (y 0).val = (y 0).val; omega
    | ⟨1, _⟩ => show win1_5.index t (1 : Fin 2) * 64 + 1 * (y 1).val = (y 1).val; omega
  · funext y
    show V c main_arg8 (((cfg1.win 6).blk t).view.emb y) = V c main_arg8 y
    refine congrArg (V c main_arg8) ?_
    funext a; apply Fin.ext
    match a with
    | ⟨0, _⟩ => show win1_6.index t (0 : Fin 2) * 64 + 1 * (y 0).val = (y 0).val; omega
    | ⟨1, _⟩ => show win1_6.index t (1 : Fin 2) * 1 + 1 * (y 1).val = (y 1).val; omega
  · funext y
    show V c main_v38 (((cfg1.win 7).blk t).view.emb y) = V c main_v38 y
    refine congrArg (V c main_v38) ?_
    funext a; apply Fin.ext
    match a with
    | ⟨0, _⟩ => show win1_7.index t (0 : Fin 2) * 1 + 1 * (y 0).val = (y 0).val; omega
    | ⟨1, _⟩ => show win1_7.index t (1 : Fin 2) * 1 + 1 * (y 1).val = (y 1).val; omega

/-- An index of the output column is in point `t`'s block iff each coordinate is in the block's range. -/
theorem mem_blk (t : Fin cfg1.N) (i : S100000x1.Idx) :
    i ∈ ((cfg1.win 8).blk t).view.set ↔ ∀ a : Fin 2, win1_8.index t a * S5000x1.size a ≤ (i a).val
      ∧ (i a).val < win1_8.index t a * S5000x1.size a + S5000x1.size a := by
  show i ∈ ((View.whole main_v39).slice (win1_8.rect t)).set ↔ _
  rw [View.set_slice_whole, Rect.mem_set_unit]
  exact Iff.rfl

/-- Every node is in the block `node / 5000`: the written blocks cover the column. -/
theorem cover (i : S100000x1.Idx) :
    ∃ t : Fin cfg1.N, (cfg1.win 8).flush t = true ∧ i ∈ ((cfg1.win 8).blk t).view.set := by
  have hi0 : (i 0).val < 100000 := (i 0).isLt
  have hi1 : (i 1).val < 1 := (i 1).isLt
  let t : Fin cfg1.N := ⟨(i 0).val / 5000, by rw [show cfg1.N = 20 from N_1]; omega⟩
  obtain ⟨-, -, -, -, -, -, -, -, -, -, -, -, -, -, -, -, e80, e81⟩ := index_rows t
  have e80' : win1_8.index t (0 : Fin 2) = (i 0).val / 5000 := e80
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- The output column after the region: the projection of the second layer's dense part of the arrays it found. -/
theorem final (c : Dev nD) : (dat1 V c).arrAt 8 cfg1.N = result V c :=
  (dat1 V c).arrAt_eq_of_cover 8 (result V c) (fun t _ => flushed_eq V c t) (cover)

end Cert.KernelIdeal.Layer2

end
-- ==== Proof.RefLayers.lean ====
/-
  The reference, stage by stage, in the vocabulary of the dense layer.

  The reference computes, per layer, the neighbour sums `s` (a scatter-add of gathered feature rows: kept opaque
  here, `neighbourSum`), the neighbour count clamped below by one `d`, the mean `s / d`, and then
  `max (mean · Wl + h · Wr + b, 0)`. Index by index that is the dense layer of `s`, the reciprocal `1 / d`, `h` and
  the weights: the host's matrix products are sums over the contracted feature axis, the broadcasts read one row or
  one column, and the quotient by the clamped count — never zero — is the product with its reciprocal. The last
  stage is the projection of the second layer's rows plus its bias, reshaped to a vector.
-/
import proofs.«153400_j36507222016452_2_alg».proof.Proof.Gen.ReferenceIdeal.Read
import proofs.«153400_j36507222016452_2_alg».proof.Proof.SageDense

set_option maxRecDepth 16384

noncomputable section

open scoped BigOperators

namespace Cert.ReferenceIdeal.RefLayers

open Idealize.ShloMosaic Idealize.ShloMosaic.ValueIdx
open Cert.ReferenceIdeal Cert.ReferenceIdeal.Gen Cert.ReferenceIdeal.Read Cert.SageDense

/-- The reciprocal of a clamped count: the column of ones over it, entry by entry. -/
def recip (d : S100000x1.Idx → EReal) : S100000x1.Idx → EReal := Host.divf (F := Ideal) (φ := .f32) (val_main_v18 (F := Ideal)) d

theorem recip_apply (d : S100000x1.Idx → EReal) (i : S100000x1.Idx) : recip d i = recipOf (d i) := by
  show Ideal.div (val_main_v18 (F := Ideal) i) (d i) = Ideal.div oneW (d i)
  rw [val_main_v18_apply, val_main_cst_3_apply]; rfl

/-- The sum, per destination node, of the source nodes' rows of `h` over the edge list `e`. -/
def neighbourSum (h : S100000x64.Idx → EReal) (e : S2x1600000.Idx → BitVec 32) : S100000x64.Idx → EReal :=
  Host.scatterAdd (F := Ideal) (φ := .f32) scatter_S100000x64_S1600000x1_S1600000x64_1_0_0_1 (val_main_v11 (F := Ideal))
    (val_main_v12 (F := Ideal) e)
    (Host.gather (α := EReal) gather_S100000x64_S1600000x1_S1600000x64_1_0_n_n_0_1_164 h (val_main_v9 (F := Ideal) e))

variable (x0 : S100000x64.Idx → EReal) (x1 : S2x1600000.Idx → BitVec 32) (x2 x3 : S64x64.Idx → EReal)
  (x4 : S64.Idx → EReal) (x5 x6 : S64x64.Idx → EReal) (x7 : S64.Idx → EReal) (x8 : S64x1.Idx → EReal) (x9 : S1.Idx → EReal)

theorem sum1_eq : val_main_v13 (F := Ideal) x0 x1 = neighbourSum x0 x1 := rfl

theorem sum2_eq : val_main_v38 (F := Ideal) x0 x1 x2 x3 x4 = neighbourSum (val_main_v28 (F := Ideal) x0 x1 x2 x3 x4) x1 := rfl

/-- Both layers clamp the same neighbour count. -/
theorem count2_eq : val_main_v44 (F := Ideal) x1 = val_main_v19 (F := Ideal) x1 := rfl

/-- The clamped count at a node is the maximum of the count and one. -/
theorem count_apply (i : S100000x1.Idx) : val_main_v19 (F := Ideal) x1 i = max (val_main_v17 (F := Ideal) x1 i) oneW := by
  rw [val_main_v19_apply, val_main_v18_apply, val_main_cst_3_apply]; rfl

/-- The first layer: the dense layer of the neighbour sums, the reciprocal clamped count, the features, the first
    weights and the first bias as a row. -/
theorem layer1_eq : val_main_v28 (F := Ideal) x0 x1 x2 x3 x4
    = dense (R := 100000) (val_main_v13 (F := Ideal) x0 x1) (recip (val_main_v19 (F := Ideal) x1)) x0 x2 x3 (val_main_v25 (F := Ideal) x4) := by
  funext i
  obtain ⟨p, q, rfl⟩ : ∃ (p : Fin 100000) (q : Fin 64), i = ix2 p q := ⟨i 0, i 1, eq_ix2 i⟩
  rw [val_main_v28_apply, val_main_v27_apply, val_main_v24_apply, val_main_v22_apply, val_main_v23_apply,
    val_main_v26_apply, val_main_call0_v0_apply, val_main_call0_cst_apply, dense_ix2]
  have el : ∀ k : Fin 64, lidx_main_v22 (ix2 p q) k = ix2 p k := fun k => funext fun a => Fin.ext (by
    match a with | ⟨0, _⟩ => rfl | ⟨1, _⟩ => rfl)
  have er : ∀ k : Fin 64, ridx_main_v22 (ix2 p q) k = ix2 k q := fun k => funext fun a => Fin.ext (by
    match a with | ⟨0, _⟩ => rfl | ⟨1, _⟩ => rfl)
  have el' : ∀ k : Fin 64, lidx_main_v23 (ix2 p q) k = ix2 p k := fun k => funext fun a => Fin.ext (by
    match a with | ⟨0, _⟩ => rfl | ⟨1, _⟩ => rfl)
  have er' : ∀ k : Fin 64, ridx_main_v23 (ix2 p q) k = ix2 k q := fun k => funext fun a => Fin.ext (by
    match a with | ⟨0, _⟩ => rfl | ⟨1, _⟩ => rfl)
  have ec : ∀ k : Fin 64, idx_main_v20 (ix2 p k) = ix2 p (0 : Fin 1) := fun k => funext fun a => Fin.ext (by
    match a with | ⟨0, _⟩ => rfl | ⟨1, _⟩ => rfl)
  have eb : idx_main_v26 (ix2 p q) = ix2 (0 : Fin 1) q := funext fun a => Fin.ext (by
    match a with | ⟨0, _⟩ => rfl | ⟨1, _⟩ => rfl)
  unfold denseAt
  rw [recip_apply, count_apply]
  show max ((∑ k : Fin 64, val_main_v21 (F := Ideal) x0 x1 (lidx_main_v22 (ix2 p q) k) * x2 (ridx_main_v22 (ix2 p q) k))
        + (∑ k : Fin 64, x0 (lidx_main_v23 (ix2 p q) k) * x3 (ridx_main_v23 (ix2 p q) k))
        + val_main_v25 (F := Ideal) x4 (idx_main_v26 (ix2 p q))) zeroW = _
  refine congrArg (fun t => max t zeroW) ?_
  refine congrArg₂ (· + ·) (congrArg₂ (· + ·) (Finset.sum_congr rfl fun k _ => ?_) (Finset.sum_congr rfl fun k _ => ?_)) ?_
  · rw [el k, er k, val_main_v21_apply, val_main_v20_apply, ec k, count_apply]
    exact congrArg (· * x2 (ix2 k q)) (mean_eq _ _)
  · rw [el' k, er' k]
  · rw [eb]

/-- The second layer's clamped count at a node. -/
theorem count2_apply (i : S100000x1.Idx) : val_main_v44 (F := Ideal) x1 i = max (val_main_v42 (F := Ideal) x1 i) oneW := by
  rw [val_main_v44_apply, val_main_v43_apply, val_main_cst_9_apply]; rfl

/-- The second layer: the dense layer of the first layer's neighbour sums, the reciprocal clamped count, the first
    layer's rows, the second weights and the second bias as a row. -/
theorem layer2_eq : val_main_v53 (F := Ideal) x0 x1 x2 x3 x4 x5 x6 x7
    = dense (R := 100000) (val_main_v38 (F := Ideal) x0 x1 x2 x3 x4) (recip (val_main_v44 (F := Ideal) x1))
        (val_main_v28 (F := Ideal) x0 x1 x2 x3 x4) x5 x6 (val_main_v50 (F := Ideal) x7) := by
  funext i
  obtain ⟨p, q, rfl⟩ : ∃ (p : Fin 100000) (q : Fin 64), i = ix2 p q := ⟨i 0, i 1, eq_ix2 i⟩
  rw [val_main_v53_apply, val_main_v52_apply, val_main_v49_apply, val_main_v47_apply, val_main_v48_apply,
    val_main_v51_apply, val_main_call1_v0_apply, val_main_call1_cst_apply, dense_ix2]
  have el : ∀ k : Fin 64, lidx_main_v47 (ix2 p q) k = ix2 p k := fun k => funext fun a => Fin.ext (by
    match a with | ⟨0, _⟩ => rfl | ⟨1, _⟩ => rfl)
  have er : ∀ k : Fin 64, ridx_main_v47 (ix2 p q) k = ix2 k q := fun k => funext fun a => Fin.ext (by
    match a with | ⟨0, _⟩ => rfl | ⟨1, _⟩ => rfl)
  have el' : ∀ k : Fin 64, lidx_main_v48 (ix2 p q) k = ix2 p k := fun k => funext fun a => Fin.ext (by
    match a with | ⟨0, _⟩ => rfl | ⟨1, _⟩ => rfl)
  have er' : ∀ k : Fin 64, ridx_main_v48 (ix2 p q) k = ix2 k q := fun k => funext fun a => Fin.ext (by
    match a with | ⟨0, _⟩ => rfl | ⟨1, _⟩ => rfl)
  have ec : ∀ k : Fin 64, idx_main_v45 (ix2 p k) = ix2 p (0 : Fin 1) := fun k => funext fun a => Fin.ext (by
    match a with | ⟨0, _⟩ => rfl | ⟨1, _⟩ => rfl)
  have eb : idx_main_v51 (ix2 p q) = ix2 (0 : Fin 1) q := funext fun a => Fin.ext (by
    match a with | ⟨0, _⟩ => rfl | ⟨1, _⟩ => rfl)
  unfold denseAt
  rw [recip_apply, count2_apply]
  show max ((∑ k : Fin 64, val_main_v46 (F := Ideal) x0 x1 x2 x3 x4 (lidx_main_v47 (ix2 p q) k) * x5 (ridx_main_v47 (ix2 p q) k))
        + (∑ k : Fin 64, val_main_v28 (F := Ideal) x0 x1 x2 x3 x4 (lidx_main_v48 (ix2 p q) k) * x6 (ridx_main_v48 (ix2 p q) k))
        + val_main_v50 (F := Ideal) x7 (idx_main_v51 (ix2 p q))) zeroW = _
  refine congrArg (fun t => max t zeroW) ?_
  refine congrArg₂ (· + ·) (congrArg₂ (· + ·) (Finset.sum_congr rfl fun k _ => ?_) (Finset.sum_congr rfl fun k _ => ?_)) ?_
  · rw [el k, er k, val_main_v46_apply, val_main_v45_apply, ec k, count2_apply]
    exact congrArg (· * x5 (ix2 k q)) (mean_eq _ _)
  · rw [el' k, er' k]
  · rw [eb]

/-- The last stage before the reshape: the projection of the second layer's rows plus its bias. -/
theorem head_eq : val_main_v57 (F := Ideal) x0 x1 x2 x3 x4 x5 x6 x7 x8 x9
    = head (R := 100000) (val_main_v53 (F := Ideal) x0 x1 x2 x3 x4 x5 x6 x7) x8 (val_main_v55 (F := Ideal) x9) := by
  funext i
  obtain ⟨p, z, rfl⟩ : ∃ (p : Fin 100000) (z : Fin 1), i = ix2 p z := ⟨i 0, i 1, eq_ix2 i⟩
  have hz : z = 0 := Subsingleton.elim _ _
  subst hz
  rw [val_main_v57_apply, val_main_v54_apply, val_main_v56_apply, head_ix2]
  have el : ∀ k : Fin 64, lidx_main_v54 (ix2 p (0 : Fin 1)) k = ix2 p k := fun k => funext fun a => Fin.ext (by
    match a with | ⟨0, _⟩ => rfl | ⟨1, _⟩ => rfl)
  have er : ∀ k : Fin 64, ridx_main_v54 (ix2 p (0 : Fin 1)) k = ix2 k (0 : Fin 1) := fun k => funext fun a => Fin.ext (by
    match a with | ⟨0, _⟩ => rfl | ⟨1, _⟩ => rfl)
  have eb : idx_main_v56 (ix2 p (0 : Fin 1)) = ix2 (0 : Fin 1) (0 : Fin 1) := funext fun a => Fin.ext (by
    match a with | ⟨0, _⟩ => rfl | ⟨1, _⟩ => rfl)
  unfold headAt
  show (∑ k : Fin 64, val_main_v53 (F := Ideal) x0 x1 x2 x3 x4 x5 x6 x7 (lidx_main_v54 (ix2 p (0 : Fin 1)) k)
          * x8 (ridx_main_v54 (ix2 p (0 : Fin 1)) k))
        + val_main_v55 (F := Ideal) x9 (idx_main_v56 (ix2 p (0 : Fin 1))) = _
  refine congrArg₂ (· + ·) (Finset.sum_congr rfl fun k _ => ?_) ?_
  · rw [el k, er k]
  · rw [eb]

end Cert.ReferenceIdeal.RefLayers

end
-- ==== Proof.Bridge.lean ====
/-
  The idealized kernel program's result, read back to the arguments, is the reference's.

  The kernel program's buffers at each boundary of @main are known: what the host operations before the first region
  compute from the arguments (the neighbour sums of the features, the reciprocal of the clamped neighbour count, the
  features themselves, the first bias as a row), what the first region leaves (the first layer's dense part of those),
  what the host operations between the regions compute from that (the neighbour sums of the first layer's rows), what
  the second region leaves (the projection of the second layer's dense part), and the closing reshape. Stage by stage
  these are the reference's own stages: the gathers and scatter-adds are the same operations of the same values, the
  changes of float format are the identity, a vector reshaped to a row is the vector broadcast to a row, and the dense
  layer of the reciprocal count is the reference's layer (the law of the quotient by a clamped count).
-/
import proofs.«153400_j36507222016452_2_alg».proof.Proof.Gen.KernelIdeal.Frame
import proofs.«153400_j36507222016452_2_alg».proof.Proof.Layer1
import proofs.«153400_j36507222016452_2_alg».proof.Proof.Layer2
import proofs.«153400_j36507222016452_2_alg».proof.Proof.RefLayers
import Idealize.ShloMosaic.Lib.StableHlo.Run
import Idealize.ShloMosaic.Lib.ValueLayout

set_option maxRecDepth 16384
set_option maxHeartbeats 1000000

noncomputable section

open scoped BigOperators

namespace Cert.Bridge

open Idealize.ShloMosaic Idealize.ShloMosaic.TcCoe Idealize.SL.Sem Idealize.ShloMosaic.StableHlo Idealize.ShloMosaic.ValueIdx
open Cert.KernelIdeal Cert.KernelIdeal.Gen Cert.SageDense
open Cert.ReferenceIdeal.Read Cert.ReferenceIdeal.RefLayers

/-- A vector reshaped to one row is the vector broadcast along a new leading axis. -/
theorem row_of_vector (x : S64.Idx → EReal) (h : S64.ShapeCasts S1x64) :
    (shapeCast S1x64 x h : S1x64.Idx → EReal) = val_main_v25 (F := Ideal) x := by
  funext i
  obtain ⟨u, q, rfl⟩ : ∃ (u : Fin 1) (q : Fin 64), i = ix2 u q := ⟨i 0, i 1, eq_ix2 i⟩
  rw [val_main_v25_apply]
  refine (shapeCast_a_1a_apply (a := 64) x h u q).trans (congrArg x ?_)
  funext a; apply Fin.ext
  match a with | ⟨0, _⟩ => rfl

/-- A one-entry vector reshaped to a 1×1 array is that vector broadcast along a new leading axis. -/
theorem entry_of_vector (x : S1.Idx → EReal) (h : S1.ShapeCasts S1x1) :
    (shapeCast S1x1 x h : S1x1.Idx → EReal) = val_main_v55 (F := Ideal) x := by
  funext i
  obtain ⟨u, z, rfl⟩ : ∃ (u : Fin 1) (z : Fin 1), i = ix2 u z := ⟨i 0, i 1, eq_ix2 i⟩
  rw [val_main_v55_apply]
  refine (shapeCast_a_1a_apply (a := 1) x h u z).trans (congrArg x ?_)
  funext a; apply Fin.ext
  match a with
  | ⟨0, _⟩ => show z.val = 0; omega

variable (m : (ℓ : Loc nD τ sig) → Buf (Elt Ideal) ℓ) (ρ : Dev nD → PrngReg) (c : Dev nD)

/-! ## What the first region finds -/

/-- The features: the argument itself (the change of format is the identity). -/
theorem feat0 : (V1 m ρ c main_v12 : S100000x64.Idx → EReal) = m ((c : Thread nD τ).loc main_arg0) := by
  show StableHlo.after hostOps0 (W0 m ρ c) (Proc.devRef .tc main_v12) = _
  after_results_simp
  rfl

/-- The first layer's neighbour sums. -/
theorem sum0 : (V1 m ρ c main_v23 : S100000x64.Idx → EReal)
    = neighbourSum (m ((c : Thread nD τ).loc main_arg0)) (m ((c : Thread nD τ).loc main_arg1)) := by
  show StableHlo.after hostOps0 (W0 m ρ c) (Proc.devRef .tc main_v23) = _
  after_results_simp
  rfl

/-- The reciprocal of the clamped neighbour count. -/
theorem recip0 : (V1 m ρ c main_v11 : S100000x1.Idx → EReal)
    = recip (val_main_v19 (F := Ideal) (m ((c : Thread nD τ).loc main_arg1))) := by
  show StableHlo.after hostOps0 (W0 m ρ c) (Proc.devRef .tc main_v11) = _
  after_results_simp
  rfl

theorem wl0 : (V1 m ρ c main_arg2 : S64x64.Idx → EReal) = m ((c : Thread nD τ).loc main_arg2) := by
  show StableHlo.after hostOps0 (W0 m ρ c) (Proc.devRef .tc main_arg2) = _
  after_results_simp <;> rfl

theorem wr0 : (V1 m ρ c main_arg3 : S64x64.Idx → EReal) = m ((c : Thread nD τ).loc main_arg3) := by
  show StableHlo.after hostOps0 (W0 m ρ c) (Proc.devRef .tc main_arg3) = _
  after_results_simp <;> rfl

/-- The first bias as a row. -/
theorem bias0 : (V1 m ρ c main_v24 : S1x64.Idx → EReal) = val_main_v25 (F := Ideal) (m ((c : Thread nD τ).loc main_arg4)) := by
  show StableHlo.after hostOps0 (W0 m ρ c) (Proc.devRef .tc main_v24) = _
  after_results_simp
  exact row_of_vector _ _

/-- The first region leaves the reference's first layer. -/
theorem layer1 : Layer1.result (V1 m ρ) c = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Layer1.result
  rw [sum0, recip0, feat0, wl0, wr0, bias0, layer1_eq, sum1_eq]

/-! ## What the second region finds -/

/-- The first layer's rows, where the first region wrote them. -/
theorem feat1 : (W2 m ρ c (Proc.devRef .tc main_v25) : S100000x64.Idx → EReal)
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Layer1.final (V1 m ρ) c).trans (layer1 m ρ c))

/-- The edge list's source row, kept across the first region. -/
theorem src1 : (W2 m ρ c (Proc.devRef .tc main_v1) : S1600000.Idx → BitVec 32) = val_main_v1 (F := Ideal) (m ((c : Thread nD τ).loc main_arg1)) :=
  (W2_of_ne m ρ c main_v1 (by decide)).trans (by
    show StableHlo.after hostOps0 (W0 m ρ c) (Proc.devRef .tc main_v1) = _
    after_results_simp
    rfl)

/-- The edge list's destination row, kept across the first region. -/
theorem dst1 : (W2 m ρ c (Proc.devRef .tc main_v3) : S1600000.Idx → BitVec 32) = val_main_v3 (F := Ideal) (m ((c : Thread nD τ).loc main_arg1)) :=
  (W2_of_ne m ρ c main_v3 (by decide)).trans (by
    show StableHlo.after hostOps0 (W0 m ρ c) (Proc.devRef .tc main_v3) = _
    after_results_simp
    rfl)

/-- The weights and biases of the second region, kept across the first. -/
theorem keep5 : (W2 m ρ c (Proc.devRef .tc main_arg5) : S64x64.Idx → EReal) = m ((c : Thread nD τ).loc main_arg5) :=
  (W2_of_ne m ρ c main_arg5 (by decide)).trans (by
    show StableHlo.after hostOps0 (W0 m ρ c) (Proc.devRef .tc main_arg5) = _
    after_results_simp <;> rfl)
theorem keep6 : (W2 m ρ c (Proc.devRef .tc main_arg6) : S64x64.Idx → EReal) = m ((c : Thread nD τ).loc main_arg6) :=
  (W2_of_ne m ρ c main_arg6 (by decide)).trans (by
    show StableHlo.after hostOps0 (W0 m ρ c) (Proc.devRef .tc main_arg6) = _
    after_results_simp <;> rfl)
theorem keep7 : (W2 m ρ c (Proc.devRef .tc main_arg7) : S64.Idx → EReal) = m ((c : Thread nD τ).loc main_arg7) :=
  (W2_of_ne m ρ c main_arg7 (by decide)).trans (by
    show StableHlo.after hostOps0 (W0 m ρ c) (Proc.devRef .tc main_arg7) = _
    after_results_simp <;> rfl)
theorem keep8 : (W2 m ρ c (Proc.devRef .tc main_arg8) : S64x1.Idx → EReal) = m ((c : Thread nD τ).loc main_arg8) :=
  (W2_of_ne m ρ c main_arg8 (by decide)).trans (by
    show StableHlo.after hostOps0 (W0 m ρ c) (Proc.devRef .tc main_arg8) = _
    after_results_simp <;> rfl)
theorem keep9 : (W2 m ρ c (Proc.devRef .tc main_arg9) : S1.Idx → EReal) = m ((c : Thread nD τ).loc main_arg9) :=
  (W2_of_ne m ρ c main_arg9 (by decide)).trans (by
    show StableHlo.after hostOps0 (W0 m ρ c) (Proc.devRef .tc main_arg9) = _
    after_results_simp <;> rfl)

/-- The second layer's neighbour sums: the same gather and scatter-add, of the first layer's rows. -/
theorem sum1 : (V3 m ρ c main_v36 : S100000x64.Idx → EReal) = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results_simp
  rw [src1, dst1, feat1, sum2_eq]
  rfl

/-- The reciprocal clamped count, computed once and found again by the second region. -/
theorem recip1 : (V3 m ρ c main_v11 : S100000x1.Idx → EReal)
    = recip (val_main_v44 (F := Ideal) (m ((c : Thread nD τ).loc main_arg1))) := by
  show StableHlo.after hostOps1 (W2 m ρ c) (Proc.devRef .tc main_v11) = _
  after_results_simp
  rw [count2_eq]
  exact ((W2_arr m ρ c 1).trans (((dat0 (V1 m ρ) c).arrAt_in 1 rfl _).trans (A_eq0 (V1 m ρ) c 1))).trans (recip0 m ρ c)

theorem feat1' : (V3 m ρ c main_v25 : S100000x64.Idx → EReal) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v25) = _
  after_results_simp
  exact feat1 m ρ c

theorem wl1 : (V3 m ρ c main_arg5 : S64x64.Idx → EReal) = m ((c : Thread nD τ).loc main_arg5) := by
  show StableHlo.after hostOps1 (W2 m ρ c) (Proc.devRef .tc main_arg5) = _
  after_results_simp
  exact keep5 m ρ c

theorem wr1 : (V3 m ρ c main_arg6 : S64x64.Idx → EReal) = m ((c : Thread nD τ).loc main_arg6) := by
  show StableHlo.after hostOps1 (W2 m ρ c) (Proc.devRef .tc main_arg6) = _
  after_results_simp
  exact keep6 m ρ c

theorem proj1 : (V3 m ρ c main_arg8 : S64x1.Idx → EReal) = m ((c : Thread nD τ).loc main_arg8) := by
  show StableHlo.after hostOps1 (W2 m ρ c) (Proc.devRef .tc main_arg8) = _
  after_results_simp
  exact keep8 m ρ c

/-- The second bias as a row. -/
theorem bias1 : (V3 m ρ c main_v37 : S1x64.Idx → EReal) = val_main_v50 (F := Ideal) (m ((c : Thread nD τ).loc main_arg7)) := by
  show StableHlo.after hostOps1 (W2 m ρ c) (Proc.devRef .tc main_v37) = _
  after_results_simp
  rw [keep7]
  exact row_of_vector _ _

/-- The projection's bias as a 1×1 array. -/
theorem bias3 : (V3 m ρ c main_v38 : S1x1.Idx → EReal) = val_main_v55 (F := Ideal) (m ((c : Thread nD τ).loc main_arg9)) := by
  show StableHlo.after hostOps1 (W2 m ρ c) (Proc.devRef .tc main_v38) = _
  after_results_simp
  rw [keep9]
  exact entry_of_vector _ _

/-- The second region leaves the reference's last stage before the reshape. -/
theorem out1 : Layer2.result (V3 m ρ) c = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Layer2.result
  rw [sum1, recip1, feat1', wl1, wr1, bias1, proj1, bias3, head_eq, layer2_eq]

/-! ## The result -/

/-- The result buffer after the closing reshape holds the reference's result of the arguments. -/
theorem result_eq : (W5 m ρ c (Proc.devRef .tc main_v40) : S100000.Idx → EReal)
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v40) = _
  after_results_simp
  rw [show (W4 m ρ c (Proc.devRef .tc main_v39) : S100000x1.Idx → EReal)
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    from (W4_arr m ρ c 8).trans ((Layer2.final (V3 m ρ) c).trans (out1 m ρ c))]
  rfl

end Cert.Bridge

end
-- ==== Proof.lean ====
/-
  The certificate of a two-layer mean-aggregation graph network (two Pallas kernel regions) against its jnp reference.

  Both programs gather each edge's source row, scatter-add it at the edge's destination, and count the edges per
  destination. The reference divides the neighbour sums by the count clamped below by one, applies
  `max (mean · Wl + h · Wr + b, 0)` twice, and projects the rows to one number per node. The kernel program computes the
  reciprocal `1 / max (count, 1)` once on the host, and each of its two kernel regions multiplies the neighbour sums by
  it, block of 5000 rows by block, before the same matrix products (in a narrower float format, which is the identity
  on the extended reals), the bias and the rectifier; the second region also applies the projection.

  On the extended reals the two agree index by index: a quotient by a non-zero `d` is the product with `1 / d`, and
  `max (count, 1)` is never zero — no finiteness of the inputs is used. The three frames are the generated ones (the
  reference's is its generated run with the result dropped); the ideal pass rewrote nothing, so `preserves` is trivial.
-/
import proofs.«153400_j36507222016452_2_alg».proof.Defs
import proofs.«153400_j36507222016452_2_alg».proof.Proof.Gen.Kernel
import proofs.«153400_j36507222016452_2_alg».proof.Proof.Gen.Kernel.Frame
import proofs.«153400_j36507222016452_2_alg».proof.Proof.Gen.KernelIdeal
import proofs.«153400_j36507222016452_2_alg».proof.Proof.Gen.KernelIdeal.Frame
import proofs.«153400_j36507222016452_2_alg».proof.Proof.Gen.ReferenceIdeal
import proofs.«153400_j36507222016452_2_alg».proof.Proof.Gen.ReferenceIdeal.Run
import proofs.«153400_j36507222016452_2_alg».proof.Proof.Gen.ReferenceIdeal.Read
import proofs.«153400_j36507222016452_2_alg».proof.Proof.Gen.Pre_finite_inputs
import proofs.«153400_j36507222016452_2_alg».proof.Proof.KernelRun
import proofs.«153400_j36507222016452_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the reference's result function of the
    arguments in their result buffers: the kernel program's by reading its boundaries back to the arguments, the
    reference's by its run. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v58_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
